-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S352256x1 : Shape := ⟨2, ![352256, 1]⟩
abbrev S_ : Shape := ⟨0, ![]⟩

class Facts : Prop where
  bcast_S_S4096x11008 : S_.BroadcastsInDim S4096x11008 (![] : Fin 0 → Fin S4096x11008.rank)
  reducesTo_S4096x11008_S_d0_1 : S4096x11008.ReducesTo [0, 1] S_
  h_S_ : 0 < S_.numel
  bcast_S_S352256x1 : S_.BroadcastsInDim S352256x1 (![] : Fin 0 → Fin S352256x1.rank)
  reducesTo_S352256x1_S_d0_1 : S352256x1.ReducesTo [0, 1] S_

variable [Facts]

def fn {F : FTy → Type} [FloatOps F] (main_arg0 : FVec F S4096x11008 .f32) (main_arg1 : FVec F S352256x1 .f32) (main_arg2 : FVec F S352256x1 .f32) : IVec S_ 1 :=
  let main_v0 : FVec F S4096x11008 .f32 := Host.absf main_arg0
  let main_cst : FVec F S_ .f32 := constant S_ .f32 0x7F800000#32
  let main_v1 : FVec F S4096x11008 .f32 := broadcastInDim S4096x11008 ![] bcast_S_S4096x11008 main_cst
  let main_v2 : IVec S4096x11008 1 := cmpf .olt main_v0 main_v1
  let main_c : IVec S_ 1 := constantI S_ 1 1#1
  let main_v3 : IVec S_ 1 := (fun x v => Host.reduce IntOp.andi x v reducesTo_S4096x11008_S_d0_1 h_S_) main_v2 main_c
  let main_v4 : FVec F S352256x1 .f32 := Host.absf main_arg1
  let main_cst_0 : FVec F S_ .f32 := constant S_ .f32 0x7F800000#32
  let main_v5 : FVec F S352256x1 .f32 := broadcastInDim S352256x1 ![] bcast_S_S352256x1 main_cst_0
  let main_v6 : IVec S352256x1 1 := cmpf .olt main_v4 main_v5
  let main_c_1 : IVec S_ 1 := constantI S_ 1 1#1
  let main_v7 : IVec S_ 1 := (fun x v => Host.reduce IntOp.andi x v reducesTo_S352256x1_S_d0_1 h_S_) main_v6 main_c_1
  let main_v8 : IVec S_ 1 := andi main_v3 main_v7
  let main_v9 : FVec F S352256x1 .f32 := Host.absf main_arg2
  let main_cst_2 : FVec F S_ .f32 := constant S_ .f32 0x7F800000#32
  let main_v10 : FVec F S352256x1 .f32 := broadcastInDim S352256x1 ![] bcast_S_S352256x1 main_cst_2
  let main_v11 : IVec S352256x1 1 := cmpf .olt main_v9 main_v10
  let main_c_3 : IVec S_ 1 := constantI S_ 1 1#1
  let main_v12 : IVec S_ 1 := (fun x v => Host.reduce IntOp.andi x v reducesTo_S352256x1_S_d0_1 h_S_) main_v11 main_c_3
  let main_v13 : IVec S_ 1 := andi main_v8 main_v12
  main_v13
-- ==== Kernel.lean ====
abbrev S4096x11008 : Shape := ⟨2, ![4096, 11008]⟩
abbrev S352256x1 : Shape := ⟨2, ![352256, 1]⟩
abbrev S4096x86x128 : Shape := ⟨3, ![4096, 86, 128]⟩
abbrev S4096x86 : Shape := ⟨2, ![4096, 86]⟩
abbrev S128x86x128 : Shape := ⟨3, ![128, 86, 128]⟩
abbrev S128x86 : Shape := ⟨2, ![128, 86]⟩
abbrev S128x86x1 : Shape := ⟨3, ![128, 86, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S4096x86x128, .f32⟩
  | .hbm, ⟨4, _⟩ => ⟨S4096x86, .f32⟩
  | .hbm, ⟨5, _⟩ => ⟨S4096x86, .f32⟩
  | .hbm, ⟨6, _⟩ => ⟨S4096x86x128, .f32⟩
  | .hbm, ⟨7, _⟩ => ⟨S4096x11008, .f32⟩
  | .local _ .vmem, ⟨0, _⟩ => ⟨S128x86x128, .f32⟩
  | .local _ .vmem, ⟨1, _⟩ => ⟨S128x86x128, .f32⟩
  | .local _ .vmem, ⟨2, _⟩ => ⟨S128x86, .f32⟩
  | .local _ .vmem, ⟨3, _⟩ => ⟨S128x86, .f32⟩
  | .local _ .vmem, ⟨4, _⟩ => ⟨S128x86, .f32⟩
  | .local _ .vmem, ⟨5, _⟩ => ⟨S128x86, .f32⟩
  | .local _ .vmem, ⟨6, _⟩ => ⟨S128x86x128, .f32⟩
  | .local _ .vmem, ⟨7, _⟩ => ⟨S128x86x128, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x86x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x86 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x86 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x86x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x11008_S4096x86x128 : S4096x11008.ShapeCasts S4096x86x128
  shapeCasts_S352256x1_S4096x86 : S352256x1.ShapeCasts S4096x86
  inb_S128x86x128_S128x86x128_0_0_0 : ∀ a, (![0, 0, 0] : Fin 3 → Nat) a + S128x86x128.size a ≤ S128x86x128.size a
  h_S128x86x128 : 0 < S128x86x128.numel
  shapeCasts_S128x86x128_S128x86x128 : S128x86x128.ShapeCasts S128x86x128
  reduces_S128x86x128_S128x86 : S128x86x128.Reduces [2] S128x86
  inb_S128x86_S128x86_0_0 : ∀ a, (![0, 0] : Fin 2 → Nat) a + S128x86.size a ≤ S128x86.size a
  h_S128x86 : 0 < S128x86.numel
  shapeCasts_S128x86_S128x86 : S128x86.ShapeCasts S128x86
  shapeCasts_S128x86_S128x86x1 : S128x86.ShapeCasts S128x86x1
  broadcasts_S128x86x1_S128x86x128 : S128x86x1.Broadcasts S128x86x128
  shapeCasts_S4096x86x128_S4096x11008 : S4096x86x128.ShapeCasts S4096x11008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x86x128.size a ≤ S4096x86x128.size a
  hwx0_0 : ∀ i : grid0.Coords, EltTy.bits .f32 = 32 ∨ (Rect.block (s := S4096x86x128) S128x86x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x86.size a ≤ S4096x86.size a
  hwx0_1 : ∀ i : grid0.Coords, EltTy.bits .f32 = 32 ∨ (Rect.block (s := S4096x86) S128x86.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x86.size a ≤ S4096x86.size a
  hwx0_2 : ∀ i : grid0.Coords, EltTy.bits .f32 = 32 ∨ (Rect.block (s := S4096x86) S128x86.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x86x128.size a ≤ S4096x86x128.size a
  hwx0_3 : ∀ i : grid0.Coords, EltTy.bits .f32 = 32 ∨ (Rect.block (s := S4096x86x128) S128x86x128.size (cc0_transform_3 i) (hinb0_3 i)).WholeWords (EltTy.packing .f32)

variable [Facts₀]

abbrev win0_0 : Pipeline.Window sig grid0 :=
  Pipeline.Window.ofSpec (Memref.whole main_v0) S128x86x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x86.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x86.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x86x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x11008 : Shape := ⟨2, ![4096, 11008]⟩
abbrev S352256x1 : Shape := ⟨2, ![352256, 1]⟩
abbrev S352256x128 : Shape := ⟨2, ![352256, 128]⟩
abbrev S_ : Shape := ⟨0, ![]⟩
abbrev S352256 : Shape := ⟨1, ![352256]⟩

abbrev nBuf : Space → Nat
  | .hbm => 71
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S352256x128, .f32⟩
  | .hbm, ⟨4, _⟩ => ⟨S_, .f32⟩
  | .hbm, ⟨5, _⟩ => ⟨S352256, .f32⟩
  | .hbm, ⟨6, _⟩ => ⟨S352256x1, .f32⟩
  | .hbm, ⟨7, _⟩ => ⟨S_, .f32⟩
  | .hbm, ⟨8, _⟩ => ⟨S352256, .f32⟩
  | .hbm, ⟨9, _⟩ => ⟨S352256x1, .f32⟩
  | .hbm, ⟨10, _⟩ => ⟨S352256x1, .f32⟩
  | .hbm, ⟨11, _⟩ => ⟨S352256x1, .f32⟩
  | .hbm, ⟨12, _⟩ => ⟨S_, .f32⟩
  | .hbm, ⟨13, _⟩ => ⟨S352256x1, .f32⟩
  | .hbm, ⟨14, _⟩ => ⟨S352256x1, .f32⟩
  | .hbm, ⟨15, _⟩ => ⟨S_, .f32⟩
  | .hbm, ⟨16, _⟩ => ⟨S352256x1, .f32⟩
  | .hbm, ⟨17, _⟩ => ⟨S352256x1, .f32⟩
  | .hbm, ⟨18, _⟩ => ⟨S352256x1, .f32⟩
  | .hbm, ⟨19, _⟩ => ⟨S352256x1, .f32⟩
  | .hbm, ⟨20, _⟩ => ⟨S352256x1, .f32⟩
  | .hbm, ⟨21, _⟩ => ⟨S_, .f32⟩
  | .hbm, ⟨22, _⟩ => ⟨S352256x1, .f32⟩
  | .hbm, ⟨23, _⟩ => ⟨S352256x1, .f32⟩
  | .hbm, ⟨24, _⟩ => ⟨S_, .f32⟩
  | .hbm, ⟨25, _⟩ => ⟨S352256x1, .f32⟩
  | .hbm, ⟨26, _⟩ => ⟨S352256x1, .f32⟩
  | .hbm, ⟨27, _⟩ => ⟨S352256x1, .f32⟩
  | .hbm, ⟨28, _⟩ => ⟨S352256x1, .f32⟩
  | .hbm, ⟨29, _⟩ => ⟨S_, .f32⟩
  | .hbm, ⟨30, _⟩ => ⟨S352256x1, .f32⟩
  | .hbm, ⟨31, _⟩ => ⟨S352256x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S352256x1, .f32⟩
  | .hbm, ⟨36, _⟩ => ⟨S352256x1, .f32⟩
  | .hbm, ⟨37, _⟩ => ⟨S_, .f32⟩
  | .hbm, ⟨38, _⟩ => ⟨S352256x1, .f32⟩
  | .hbm, ⟨39, _⟩ => ⟨S352256x1, .f32⟩
  | .hbm, ⟨40, _⟩ => ⟨S352256x1, .f32⟩
  | .hbm, ⟨41, _⟩ => ⟨S352256x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S352256x1, .f32⟩
  | .hbm, ⟨46, _⟩ => ⟨S352256x1, .f32⟩
  | .hbm, ⟨47, _⟩ => ⟨S_, .f32⟩
  | .hbm, ⟨48, _⟩ => ⟨S352256x1, .f32⟩
  | .hbm, ⟨49, _⟩ => ⟨S352256x1, .f32⟩
  | .hbm, ⟨50, _⟩ => ⟨S352256x1, .f32⟩
  | .hbm, ⟨51, _⟩ => ⟨S352256x128, .f32⟩
  | .hbm, ⟨52, _⟩ => ⟨S352256x128, .f32⟩
  | .hbm, ⟨53, _⟩ => ⟨S352256x128, .f32⟩
  | .hbm, ⟨54, _⟩ => ⟨S352256x128, .f32⟩
  | .hbm, ⟨55, _⟩ => ⟨S352256x128, .f32⟩
  | .hbm, ⟨56, _⟩ => ⟨S352256x128, .f32⟩
  | .hbm, ⟨57, _⟩ => ⟨S352256x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S352256x128, .f32⟩
  | .hbm, ⟨62, _⟩ => ⟨S352256x128, .f32⟩
  | .hbm, ⟨63, _⟩ => ⟨S_, .f32⟩
  | .hbm, ⟨64, _⟩ => ⟨S352256x128, .f32⟩
  | .hbm, ⟨65, _⟩ => ⟨S352256x128, .f32⟩
  | .hbm, ⟨66, _⟩ => ⟨S352256x128, .f32⟩
  | .hbm, ⟨67, _⟩ => ⟨S352256x128, .f32⟩
  | .hbm, ⟨68, _⟩ => ⟨S352256x128, .f32⟩
  | .hbm, ⟨69, _⟩ => ⟨S352256x128, .f32⟩
  | .hbm, ⟨70, _⟩ => ⟨S4096x11008, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_cst_7 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_cst_11 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩

abbrev nD : Nat := 1
abbrev τ : Topo := Topo.v7x

variable {F : FTy → Type} [FloatOps F]

class Facts₀ : Prop where
  shapeCasts_S4096x11008_S352256x128 : S4096x11008.ShapeCasts S352256x128
  reducesTo_S352256x128_S352256_d1 : S352256x128.ReducesTo [1] S352256
  h_S_ : 0 < S_.numel
  bcast_S352256_S352256x1_0 : S352256.BroadcastsInDim S352256x1 (![0] : Fin 1 → Fin S352256x1.rank)
  bcast_S_S352256x1 : S_.BroadcastsInDim S352256x1 (![] : Fin 0 → Fin S352256x1.rank)
  bcast_S352256x1_S352256x128_0_1 : S352256x1.BroadcastsInDim S352256x128 (![0, 1] : Fin 2 → Fin S352256x128.rank)
  bcast_S_S352256x128 : S_.BroadcastsInDim S352256x128 (![] : Fin 0 → Fin S352256x128.rank)
  shapeCasts_S352256x128_S4096x11008 : S352256x128.ShapeCasts S4096x11008

variable [Facts₀]

class Facts : Prop extends Facts₀ where

variable [Facts]
-- ==== Proof.FiniteInputs.lean ====
/-
  The precondition `finite_inputs` evaluates to the all-ones word exactly when every entry of its three
  operands has absolute value below +∞.  Here only the first operand is read back: if the printed predicate
  is 1, every entry of x is a real number (neither infinity, and the order's bottom stands for −∞ and NaN).

  The predicate is (all |a0| < +∞) ∧ (all |a1| < +∞) ∧ (all |a2| < +∞), each "all" a reduction by `and` over
  both axes into the rank-0 shape.  A conjunction of one-bit words is 1 only if both are; a reduction by `and`
  that is 1 met only 1s; the comparison max x (−x) < ⊤ on the extended reals excludes x = ⊤ and x = ⊥.
-/
import proofs.«156058_j23098334118321_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.FiniteInputs

open Idealize.ShloMosaic Idealize.ShloMosaic.ValueIdx
open Cert.Pre_finite_inputs

/-- The rank-0 shape has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- An extended real whose absolute value max x (−x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the printed predicate is the all-ones word, every entry of its first operand is a real number. -/
theorem x_real [Cert.Pre_finite_inputs.Facts]
    (a0 : FVec Ideal Cert.Pre_finite_inputs.S4096x11008 .f32)
    (a1 a2 : FVec Ideal Cert.Pre_finite_inputs.S352256x1 .f32)
    (h : Cert.Pre_finite_inputs.fn (F := Ideal) a0 a1 a2 = fun _ => 1#1)
    (i : Cert.Pre_finite_inputs.S4096x11008.Idx) : ∃ r : ℝ, a0 i = (r : EReal) := by
  have h0 := congrFun h ix0
  dsimp only [Cert.Pre_finite_inputs.fn] at h0
  change IntOp.andi (IntOp.andi _ _) _ = 1#1 at h0
  obtain ⟨⟨hA, -⟩, -⟩ := (IntOp.andi_eq_one.1 h0).imp_left IntOp.andi_eq_one.1
  have hi := Host.reduce_andi_all _ _ _ _ ix0 hA i
  rw [cmpf_apply, broadcastInDim_scalar_apply, constant_apply] at hi
  change Ideal.cmp .olt (max (a0 i) (-(a0 i))) (Ideal.ofBits .f32 0x7F800000#32) = 1#1 at hi
  have htop : Ideal.ofBits .f32 0x7F800000#32 = ⊤ := by simp [Ideal.ofBits, Ideal.ieee]
  rw [htop] at hi
  unfold Ideal.cmp at hi
  rw [ofBool_eq_one] at hi
  exact real_of_abs_lt_top (a0 i) (of_decide_eq_true hi)

end Cert.FiniteInputs

end
-- ==== Proof.Consts.lean ====
/-
  The float literals both programs spell, as the extended reals their bit patterns denote: 1, 0, 10000, and the
  single-precision neighbour of 1/10000, which is the dyadic rational 13743895 / 2^37 (a positive real; its exact
  value never matters, only its sign).
-/
import Idealize.ShloMosaic.PureOps.Ideal

noncomputable section

namespace Cert.Quant.Consts

open Idealize.ShloMosaic

/-- The pattern of 1.0 denotes the real 1. -/
theorem one : Ideal.ofBits .f32 0x3F800000#32 = 1 := by
  simp [Ideal.ofBits, Ideal.ieee, -EReal.coe_mul]; norm_num

/-- The pattern of +0.0 denotes 0. -/
theorem zero : Ideal.ofBits .f32 0x00000000#32 = 0 := by
  simp [Ideal.ofBits, Ideal.ieee]

/-- The pattern of 10000.0 denotes the real 10000. -/
theorem hi : Ideal.ofBits .f32 0x461C4000#32 = ((10000 : ℝ) : EReal) := by
  simp [Ideal.ofBits, Ideal.ieee, -EReal.coe_mul]; norm_num

/-- The lower clamp bound, the float nearest 1/10000, denotes 13743895 / 2^37. -/
theorem lo : Ideal.ofBits .f32 0x38D1B717#32 = ((13743895 / 137438953472 : ℝ) : EReal) := by
  simp [Ideal.ofBits, Ideal.ieee, -EReal.coe_mul]; norm_num

end Cert.Quant.Consts

end
-- ==== Proof.Algebra.lean ====
/-
  The one law that joins the two programs, on the extended reals.

  Per group of 128 values with minimum mn and maximum mx, and per-group factors u and l, both programs form
    L = sigmoid(l) * mn,  U = sigmoid(u) * mx,  s = min(10000, max(c, (U - L) / 15))   (c the float nearest 1/10000),
  a rounded zero point z, and for every value x of the group the result (clamp(round(x / s) + z, 0, 15) - z) * s.
  They differ in three spellings. One takes the reciprocal 1 / s once and multiplies by it where the other divides by
  s; one writes 0 - L where the other writes -L; and one writes the rounding of y = x / s as y + (round y - y).
  Since s lies between two positive reals it is a nonzero real whatever U and L are, so dividing by s IS multiplying
  by its reciprocal, at the infinities too; 0 - L = -L on every extended real; and y + (round y - y) = round y as soon
  as y is a real number, which it is when x is. So the two results agree at every real x; at an infinite x they would
  not (infinity minus infinity), which is where the finiteness of the input is used.
-/
import Idealize.ShloMosaic.PureOps.Ideal
import proofs.«156058_j23098334118321_2_alg».proof.Proof.Consts

noncomputable section

namespace Cert.Quant

open Idealize.ShloMosaic

/-- Rounding to the nearest integer, ties to even, the infinities fixed. -/
abbrev rne (x : EReal) : EReal := Ideal.liftRound Ideal.roundHalfEven x

/-- The sigmoid spelled out: 1 / (1 + e^(-t)), with the literal 1 as its bit pattern. -/
def sigma (t : EReal) : EReal :=
  Ideal.div (Ideal.ofBits .f32 0x3F800000#32) (Ideal.ofBits .f32 0x3F800000#32 + Ideal.exp (-t))

/-- The spelled-out sigmoid is the logistic function. -/
theorem sigma_eq (t : EReal) : sigma t = Ideal.logistic t := by
  unfold sigma Ideal.logistic; rw [Consts.one]

/-- The group's scale: (U - L) / 15 clamped to [c, 10000]. -/
def scaleOf (U L : EReal) : EReal :=
  min (Ideal.ofBits .f32 0x461C4000#32)
    (max (Ideal.ofBits .f32 0x38D1B717#32) (Ideal.div (U - L) (Ideal.ofBits .f32 0x41700000#32)))

/-- Anything clamped between two positive reals is a nonzero real. -/
theorem clamp_real {a b : ℝ} (ha : 0 < a) (hb : 0 < b) (v : EReal) :
    ∃ r : ℝ, r ≠ 0 ∧ min (b : EReal) (max (a : EReal) v) = (r : EReal) := by
  rcases le_total (max (a : EReal) v) (b : EReal) with h | h
  · rw [min_eq_right h]
    rcases le_total (a : EReal) v with h' | h'
    · rw [max_eq_right h'] at h ⊢
      have hv_top : v ≠ ⊤ := ne_top_of_le_ne_top (EReal.coe_ne_top b) h
      have hv_bot : v ≠ ⊥ := ne_bot_of_le_ne_bot (EReal.coe_ne_bot a) h'
      lift v to ℝ using ⟨hv_top, hv_bot⟩
      have hav : a ≤ v := by exact_mod_cast h'
      exact ⟨v, (lt_of_lt_of_le ha hav).ne', rfl⟩
    · rw [max_eq_left h']; exact ⟨a, ha.ne', rfl⟩
  · rw [min_eq_left h]; exact ⟨b, hb.ne', rfl⟩

/-- The scale is a nonzero real, whatever the bounds are. -/
theorem scaleOf_real (U L : EReal) : ∃ r : ℝ, r ≠ 0 ∧ scaleOf U L = (r : EReal) := by
  unfold scaleOf; rw [Consts.hi, Consts.lo]
  exact clamp_real (by norm_num) (by norm_num) _

/-- The rounded, clamped zero point, with the reciprocal of the scale taken once: round(clamp((0 - L) * (1 / s))). -/
def zeroPointMul (L s : EReal) : EReal :=
  rne (min (Ideal.ofBits .f32 0x461C4000#32) (max (Ideal.ofBits .f32 0xC61C4000#32)
    ((Ideal.ofBits .f32 0x00000000#32 - L) * Ideal.div (Ideal.ofBits .f32 0x3F800000#32) s)))

/-- The same with a division: round(clamp((-L) / s)). -/
def zeroPointDiv (L s : EReal) : EReal :=
  rne (min (Ideal.ofBits .f32 0x461C4000#32) (max (Ideal.ofBits .f32 0xC61C4000#32) (Ideal.div (-L) s)))

/-- One value quantized and mapped back, multiplying by the reciprocal: (clamp(round(x * (1 / s)) + z, 0, 15) - z) * s. -/
def dequantMul (L s x : EReal) : EReal :=
  (min (Ideal.ofBits .f32 0x41700000#32) (max (Ideal.ofBits .f32 0x00000000#32)
      (rne (x * Ideal.div (Ideal.ofBits .f32 0x3F800000#32) s) + zeroPointMul L s)) - zeroPointMul L s) * s

/-- The same dividing, the rounding written y + (round y - y) with y = x / s. -/
def dequantDiv (L s x : EReal) : EReal :=
  (min (Ideal.ofBits .f32 0x41700000#32) (max (Ideal.ofBits .f32 0x00000000#32)
      ((Ideal.div x s + (rne (Ideal.div x s) - Ideal.div x s)) + zeroPointDiv L s)) - zeroPointDiv L s) * s

/-- Against a nonzero real scale the two zero points are one. -/
theorem zeroPoint_eq (L : EReal) {r : ℝ} (hr : r ≠ 0) : zeroPointDiv L (r : EReal) = zeroPointMul L (r : EReal) := by
  unfold zeroPointDiv zeroPointMul
  rw [Consts.one, Consts.zero, Ideal.div_coe hr, Ideal.div_coe hr, one_mul, zero_sub]

/-- A real y plus (its rounding minus y) is its rounding. -/
theorem add_round_sub (y : ℝ) : (y : EReal) + (rne (y : EReal) - (y : EReal)) = rne (y : EReal) := by
  show (y : EReal) + ((((Ideal.roundHalfEven y : ℤ) : ℝ) : EReal) - (y : EReal)) = (((Ideal.roundHalfEven y : ℤ) : ℝ) : EReal)
  rw [← EReal.coe_sub, ← EReal.coe_add]
  congr 1; ring

/-- THE LAW: against a nonzero real scale and at a real value, the two spellings of the result agree. -/
theorem dequant_eq (L : EReal) {r : ℝ} (hr : r ≠ 0) (x : ℝ) :
    dequantDiv L (r : EReal) (x : EReal) = dequantMul L (r : EReal) (x : EReal) := by
  unfold dequantDiv dequantMul
  rw [zeroPoint_eq L hr, Consts.one, Ideal.div_coe hr, Ideal.div_coe hr, one_mul, ← EReal.coe_mul, add_round_sub]

end Cert.Quant

end
-- ==== Proof.Spec.lean ====
/-
  The result as ONE function of the three argument arrays, index by index.

  The [4096, 11008] array x is cut into 352256 groups of 128 consecutive values in row-major order: group g holds the
  flat positions g * 128 + k, k < 128, and since 11008 = 86 * 128 the entry (r, c) lies in group r * 86 + c / 128.
  The two factor arrays have one entry per group. The result at an entry is the group's quantize-and-map-back of that
  entry (Algebra.lean), from the group's minimum and maximum and its two factors. It is stated twice, once in each
  program's spelling; the two are one function wherever every entry of x is a real number.
-/
import Idealize.ShloMosaic.PureOps.Ideal
import Idealize.ShloMosaic.Lib.ValueIdx
import proofs.«156058_j23098334118321_2_alg».proof.Proof.Algebra

noncomputable section

namespace Cert.Quant

open Idealize.ShloMosaic Idealize.ShloMosaic.ValueIdx

/-- The minimum of 128 values, folded from the pattern of +infinity. -/
def gmin (f : Fin 128 → EReal) : EReal :=
  (Finset.univ : Finset (Fin 128)).fold min (Ideal.ofBits .f32 0x7F800000#32) f

/-- The maximum of 128 values, folded from the pattern of -infinity. -/
def gmax (f : Fin 128 → EReal) : EReal :=
  (Finset.univ : Finset (Fin 128)).fold max (Ideal.ofBits .f32 0xFF800000#32) f

/-- One entry's result with the reciprocal of the scale taken once and the logistic function as one operation. -/
def elemMul (mn mx u l x : EReal) : EReal :=
  dequantMul (Ideal.logistic l * mn) (scaleOf (Ideal.logistic u * mx) (Ideal.logistic l * mn)) x

/-- One entry's result dividing by the scale, the sigmoid spelled out. -/
def elemDiv (mn mx u l x : EReal) : EReal :=
  dequantDiv (sigma l * mn) (scaleOf (sigma u * mx) (sigma l * mn)) x

/-- At a real entry the two spellings agree: the scale is a nonzero real whatever the group holds. -/
theorem elem_eq (mn mx u l : EReal) (x : ℝ) : elemDiv mn mx u l (x : EReal) = elemMul mn mx u l (x : EReal) := by
  unfold elemDiv elemMul
  rw [sigma_eq, sigma_eq]
  obtain ⟨r, hr, hs⟩ := scaleOf_real (Ideal.logistic u * mx) (Ideal.logistic l * mn)
  rw [hs]
  exact dequant_eq _ hr x

/-- The k-th value of group g: flat position g * 128 + k of the [4096, 11008] array. -/
def member (g : Fin 352256) (k : Fin 128) : (⟨2, ![4096, 11008]⟩ : Shape).Idx :=
  ix2 ⟨(g.val * 128 + k.val) / 11008, by have := g.isLt; have := k.isLt; omega⟩
    ⟨(g.val * 128 + k.val) % 11008, by omega⟩

/-- Group g's entry of a [352256, 1] factor array. -/
def factorAt (g : Fin 352256) : (⟨2, ![352256, 1]⟩ : Shape).Idx := ix2 g 0

/-- The group an entry (r, c) lies in: r * 86 + c / 128. -/
def groupOf (i : (⟨2, ![4096, 11008]⟩ : Shape).Idx) : Fin 352256 :=
  ⟨(i 0).val * 86 + (i 1).val / 128, by have := idx2_lt0 i; have := idx2_lt1 i; omega⟩

/-- The result array, in the spelling that multiplies by the reciprocal. -/
def G (a0 : (⟨2, ![4096, 11008]⟩ : Shape).Idx → EReal) (a1 a2 : (⟨2, ![352256, 1]⟩ : Shape).Idx → EReal)
    (i : (⟨2, ![4096, 11008]⟩ : Shape).Idx) : EReal :=
  elemMul (gmin fun k => a0 (member (groupOf i) k)) (gmax fun k => a0 (member (groupOf i) k))
    (a1 (factorAt (groupOf i))) (a2 (factorAt (groupOf i))) (a0 i)

/-- The result array, in the spelling that divides. -/
def Gdiv (a0 : (⟨2, ![4096, 11008]⟩ : Shape).Idx → EReal) (a1 a2 : (⟨2, ![352256, 1]⟩ : Shape).Idx → EReal)
    (i : (⟨2, ![4096, 11008]⟩ : Shape).Idx) : EReal :=
  elemDiv (gmin fun k => a0 (member (groupOf i) k)) (gmax fun k => a0 (member (groupOf i) k))
    (a1 (factorAt (groupOf i))) (a2 (factorAt (groupOf i))) (a0 i)

/-- Where every entry of x is a real number the two spellings are one array. -/
theorem Gdiv_eq_G (a0 : (⟨2, ![4096, 11008]⟩ : Shape).Idx → EReal) (a1 a2 : (⟨2, ![352256, 1]⟩ : Shape).Idx → EReal)
    (h : ∀ i, ∃ r : ℝ, a0 i = (r : EReal)) : Gdiv a0 a1 a2 = G a0 a1 a2 := by
  funext i
  obtain ⟨r, hr⟩ := h i
  unfold Gdiv G
  rw [hr]
  exact elem_eq _ _ _ _ r

end Cert.Quant

end
-- ==== Proof.Payload.lean ====
/-
  The kernel body's arithmetic, read at an index of the [128, 86, 128] block.

  The body loads a block x of 128 rows by 86 groups by 128 lanes and the two [128, 86] blocks of per-group factors.
  Per (row, group) it takes the minimum and the maximum over the 128 lanes, forms the scale, its reciprocal and the
  rounded zero point; these per-group values get a trailing unit axis and are repeated along the lanes; per lane it
  then rounds x times the reciprocal, adds the zero point, clamps to [0, 15], subtracts the zero point and multiplies
  by the scale. Read at (row p, group q, lane l) this is the per-entry function of Spec.lean, of the group's 128 lanes,
  the group's two factors and the entry itself.
-/
import proofs.«156058_j23098334118321_2_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.Reduce
import proofs.«156058_j23098334118321_2_alg».proof.Proof.Spec

noncomputable section

namespace Cert.KernelIdeal.QuantBody

open Cert.KernelIdeal Cert.KernelIdeal.Gen Idealize.ShloMosaic Idealize.ShloMosaic.ValueIdx Cert.Quant

/-- The minimum over the lane axis, at (p, q), is the minimum of the group's 128 lanes. -/
theorem min_lanes (v : FVec Ideal S128x86x128 .f32) (h : S128x86x128.Reduces [2] S128x86) (hφ : FKind.Formats .f32)
    (hacc : (0x7F800000#32 : BitVec 32) = 0x7F800000#32) (p : Fin 128) (q : Fin 86) :
    multiReduction .minimumf [2] S128x86 v 0x7F800000#32 h hφ hacc (ix2 p q) = gmin (fun k => v (ix3 p q k)) := by
  refine (multiReduction_minimumf_eq_fold v 0x7F800000#32 h hφ hacc (ix2 p q)).trans ?_
  refine (h.fold_filter_drop_single _ _ v (ix2 p q)).trans ?_
  show (Finset.univ : Finset (Fin 128)).fold min (Ideal.ofBits .f32 0x7F800000#32) (fun k => v (h.lift (ix2 p q) k)) = _
  unfold gmin
  congr 1
  funext k
  congr 1
  funext a
  apply Fin.ext
  match a with
  | ⟨0, _⟩ => rfl
  | ⟨1, _⟩ => rfl
  | ⟨2, _⟩ => rfl

/-- The maximum over the lane axis, at (p, q), is the maximum of the group's 128 lanes. -/
theorem max_lanes (v : FVec Ideal S128x86x128 .f32) (h : S128x86x128.Reduces [2] S128x86) (hφ : FKind.Formats .f32)
    (hacc : (0xFF800000#32 : BitVec 32) = 0xFF800000#32) (p : Fin 128) (q : Fin 86) :
    multiReduction .maximumf [2] S128x86 v 0xFF800000#32 h hφ hacc (ix2 p q) = gmax (fun k => v (ix3 p q k)) := by
  refine (multiReduction_maximumf_eq_fold v 0xFF800000#32 h hφ hacc (ix2 p q)).trans ?_
  refine (h.fold_filter_drop_single _ _ v (ix2 p q)).trans ?_
  show (Finset.univ : Finset (Fin 128)).fold max (Ideal.ofBits .f32 0xFF800000#32) (fun k => v (h.lift (ix2 p q) k)) = _
  unfold gmax
  congr 1
  funext k
  congr 1
  funext a
  apply Fin.ext
  match a with
  | ⟨0, _⟩ => rfl
  | ⟨1, _⟩ => rfl
  | ⟨2, _⟩ => rfl

/-- A [128, 86] value given a trailing unit axis reads (p, q) at (p, q, 0). -/
theorem unit_axis_apply {α : Type} (v : S128x86.Idx → α) (h : S128x86.ShapeCasts S128x86x1) (p : Fin 128) (q : Fin 86) (z : Fin 1) :
    shapeCast S128x86x1 v h (ix3 p q z) = v (ix2 p q) := by
  refine shapeCast_apply v h (ix3 p q z) (ix2 p q) ?_
  rw [Shape.rowMajor_val_two, Shape.rowMajor_val_three]
  show p.val * 86 + q.val = (p.val * 86 + q.val) * 1 + z.val
  have := z.isLt
  omega

/-- A [128, 86, 1] value repeated along the lanes reads (p, q, 0) at (p, q, l). -/
theorem lanes_apply {α : Type} (w : S128x86x1.Idx → α) (h : S128x86x1.Broadcasts S128x86x128) (p : Fin 128) (q : Fin 86) (l : Fin 128) :
    broadcastTo S128x86x128 w h (ix3 p q l) = w (ix3 p q (0 : Fin 1)) := by
  refine broadcastTo_apply w h (ix3 p q l) (ix3 p q (0 : Fin 1)) (fun a => ?_)
  match a with
  | ⟨0, _⟩ => show p.val = if (128 : Nat) = 1 then 0 else p.val; rw [if_neg (by decide)]
  | ⟨1, _⟩ => show q.val = if (86 : Nat) = 1 then 0 else q.val; rw [if_neg (by decide)]
  | ⟨2, _⟩ => show (0 : Nat) = if (1 : Nat) = 1 then 0 else l.val; rw [if_pos rfl]

/-- The logistic function of a vector is taken entry by entry. -/
theorem logistic_apply {s : Shape} (a : FVec Ideal s .f32) (i : s.Idx) : logistic a i = Ideal.logistic (a i) := rfl

/-- Rounding a vector to the nearest integers, ties to even, is taken entry by entry. -/
theorem roundeven_apply {s : Shape} (a : FVec Ideal s .f32) (i : s.Idx) : roundeven a i = rne (a i) := rfl

/-- A scalar literal is the extended real its pattern denotes. -/
theorem scalar_ofBits (b : BitVec 32) : Scalar.ofBits (F := Ideal) .f32 b = Ideal.ofBits .f32 b := rfl

variable (x0 : Vec Ideal S128x86x128 .f32) (x1 x2 : Vec Ideal S128x86 .f32)

/-- The lower bound L = sigmoid(l) * min at (p, q). -/
theorem lower_apply (p : Fin 128) (q : Fin 86) :
    k0_pay3 (F := Ideal) x0 x2 (ix2 p q) = Ideal.logistic (x2 (ix2 p q)) * gmin (fun k => x0 (ix3 p q k)) := by
  simp only [k0_pay3, k0_pay2, mulf_apply, logistic_apply, shapeCast_self]
  rw [min_lanes]

/-- The scale at (p, q). -/
theorem scale_apply (p : Fin 128) (q : Fin 86) :
    k0_pay4 (F := Ideal) x0 x1 x2 (ix2 p q)
      = scaleOf (Ideal.logistic (x1 (ix2 p q)) * gmax (fun k => x0 (ix3 p q k)))
          (Ideal.logistic (x2 (ix2 p q)) * gmin (fun k => x0 (ix3 p q k))) := by
  simp only [k0_pay4, k0_pay2, minimumf_apply, maximumf_apply, divf_apply, subf_apply, mulf_apply, broadcast_apply,
    logistic_apply, scalar_ofBits, shapeCast_self, lower_apply, scaleOf]
  rw [max_lanes]

/-- The reciprocal of the scale at (p, q). -/
theorem recip_apply (p : Fin 128) (q : Fin 86) :
    k0_pay5 (F := Ideal) x0 x1 x2 (ix2 p q)
      = Ideal.div (Ideal.ofBits .f32 0x3F800000#32) (k0_pay4 (F := Ideal) x0 x1 x2 (ix2 p q)) := by
  simp only [k0_pay5, divf_apply, broadcast_apply, scalar_ofBits]

/-- The scale with its trailing unit axis, at (p, q, 0). -/
theorem scale_col_apply (p : Fin 128) (q : Fin 86) (z : Fin 1) :
    k0_pay6 (F := Ideal) x0 x1 x2 (ix3 p q z) = k0_pay4 (F := Ideal) x0 x1 x2 (ix2 p q) := by
  simp only [k0_pay6, unit_axis_apply]

/-- The rounded zero point with its trailing unit axis, at (p, q, 0). -/
theorem zero_point_apply (p : Fin 128) (q : Fin 86) (z : Fin 1) :
    k0_pay7 (F := Ideal) x0 x1 x2 (ix3 p q z)
      = zeroPointMul (k0_pay3 (F := Ideal) x0 x2 (ix2 p q)) (k0_pay4 (F := Ideal) x0 x1 x2 (ix2 p q)) := by
  simp only [k0_pay7, unit_axis_apply, roundeven_apply, minimumf_apply, maximumf_apply, mulf_apply, subf_apply,
    broadcast_apply, scalar_ofBits, recip_apply, zeroPointMul]

/-- The quantized value clamped to [0, 15], at (p, q, l). -/
theorem quant_apply (p : Fin 128) (q : Fin 86) (l : Fin 128) :
    k0_pay8 (F := Ideal) x0 x1 x2 (ix3 p q l)
      = min (Ideal.ofBits .f32 0x41700000#32) (max (Ideal.ofBits .f32 0x00000000#32)
          (rne (x0 (ix3 p q l) * Ideal.div (Ideal.ofBits .f32 0x3F800000#32) (k0_pay4 (F := Ideal) x0 x1 x2 (ix2 p q)))
            + zeroPointMul (k0_pay3 (F := Ideal) x0 x2 (ix2 p q)) (k0_pay4 (F := Ideal) x0 x1 x2 (ix2 p q)))) := by
  simp only [k0_pay8, k0_pay2, minimumf_apply, maximumf_apply, addf_apply, mulf_apply, roundeven_apply, broadcast_apply,
    scalar_ofBits, lanes_apply, unit_axis_apply, shapeCast_self, recip_apply, zero_point_apply]

/-- THE BODY AT AN INDEX: what is stored at (p, q, l) is the per-entry function of the group's lanes, its two factors
    and the entry. -/
theorem body_apply (p : Fin 128) (q : Fin 86) (l : Fin 128) :
    k0_pay1 (F := Ideal) (k0_pay6 x0 x1 x2) (k0_pay7 x0 x1 x2) (k0_pay8 x0 x1 x2) (ix3 p q l)
      = elemMul (gmin fun k => x0 (ix3 p q k)) (gmax fun k => x0 (ix3 p q k)) (x1 (ix2 p q)) (x2 (ix2 p q)) (x0 (ix3 p q l)) := by
  simp only [k0_pay1, mulf_apply, subf_apply, lanes_apply, scale_col_apply, zero_point_apply, quant_apply, lower_apply,
    scale_apply, elemMul, dequantMul]

end Cert.KernelIdeal.QuantBody

end
-- ==== Proof.KernelValue.lean ====
/-
  The kernel's result array, read off its run.

  The host first views x as [4096, 86, 128] (row, group, lane) and each factor array as [4096, 86] (row, group); these
  are reshapes, so entry (r, q, l) of the view is entry (r, q * 128 + l) of x and entry (r, q) of a factor's view is
  entry (r * 86 + q, 0) of the factor. The grid has 32 points; point t works on rows 128 t … 128 t + 127, all groups,
  all lanes, and writes that block of the [4096, 86, 128] result. A group never crosses a block, so what point t writes
  is the block of ONE function of the three views: at (r, q, l) the per-entry function of Spec.lean, of the 128 lanes
  of (r, q), the two factors at (r, q), and the entry. The 32 blocks tile the array, so the array ends holding that
  function; the host then views it as [4096, 11008] again.
-/
import proofs.«156058_j23098334118321_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import proofs.«156058_j23098334118321_2_alg».proof.Proof.Payload

set_option maxRecDepth 16384

noncomputable section

namespace Cert.KernelIdeal.QuantValue

open Cert.KernelIdeal Cert.KernelIdeal.Gen Cert.KernelIdeal.Facts₀ Idealize.ShloMosaic Idealize.ShloMosaic.TcCoe Idealize.SL.Sem
open Idealize.ShloMosaic.ValueIdx Cert.Quant
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result over the [row, group, lane] view: at (r, q, l) the per-entry function of the group's 128 lanes, its two
    factors and the entry. -/
def G3 (X : S4096x86x128.Idx → EReal) (UP LOW : S4096x86.Idx → EReal) : S4096x86x128.Idx → EReal := fun i =>
  elemMul (gmin fun k => X (ix3 (n0 := 4096) (n1 := 86) (n2 := 128) (i 0) (i 1) k))
    (gmax fun k => X (ix3 (n0 := 4096) (n1 := 86) (n2 := 128) (i 0) (i 1) k))
    (UP (ix2 (n0 := 4096) (n1 := 86) (i 0) (i 1))) (LOW (ix2 (n0 := 4096) (n1 := 86) (i 0) (i 1))) (X i)

/-- What the body leaves in the output's buffer is, index by index, the per-entry function of the loaded blocks. -/
theorem block_eq (x0 : Vec Ideal S128x86x128 .f32) (x1 x2 : Vec Ideal S128x86 .f32) :
    out0_3 (F := Ideal) x0 x1 x2 = fun j =>
      elemMul (gmin fun k => x0 (ix3 (n0 := 128) (n1 := 86) (n2 := 128) (j 0) (j 1) k))
        (gmax fun k => x0 (ix3 (n0 := 128) (n1 := 86) (n2 := 128) (j 0) (j 1) k))
        (x1 (ix2 (n0 := 128) (n1 := 86) (j 0) (j 1))) (x2 (ix2 (n0 := 128) (n1 := 86) (j 0) (j 1))) (x0 j) := by
  unfold out0_3
  rw [View.canon_unit_zero hz3]
  simp only [View.ld_unit_zero (S := S128x86x128) hz3, View.ld_unit_zero (S := S128x86) hz2]
  funext j
  obtain ⟨p, q, l, rfl⟩ : ∃ (p : Fin 128) (q : Fin 86) (l : Fin 128), j = ix3 p q l := ⟨j 0, j 1, j 2, eq_ix3 j⟩
  exact QuantBody.body_apply x0 x1 x2 p q l

/-- A block's entries and the array's entries they come from give the same per-entry result. -/
theorem point_eq (X : S4096x86x128.Idx → EReal) (UP LOW : S4096x86.Idx → EReal)
    (x0 : Vec Ideal S128x86x128 .f32) (x1 x2 : Vec Ideal S128x86 .f32) (j : S128x86x128.Idx) (I : S4096x86x128.Idx)
    (h0 : ∀ k : Fin 128, x0 (ix3 (n0 := 128) (n1 := 86) (n2 := 128) (j 0) (j 1) k) = X (ix3 (n0 := 4096) (n1 := 86) (n2 := 128) (I 0) (I 1) k))
    (h1 : x1 (ix2 (n0 := 128) (n1 := 86) (j 0) (j 1)) = UP (ix2 (n0 := 4096) (n1 := 86) (I 0) (I 1)))
    (h2 : x2 (ix2 (n0 := 128) (n1 := 86) (j 0) (j 1)) = LOW (ix2 (n0 := 4096) (n1 := 86) (I 0) (I 1)))
    (h3 : x0 j = X I) :
    elemMul (gmin fun k => x0 (ix3 (n0 := 128) (n1 := 86) (n2 := 128) (j 0) (j 1) k))
        (gmax fun k => x0 (ix3 (n0 := 128) (n1 := 86) (n2 := 128) (j 0) (j 1) k))
        (x1 (ix2 (n0 := 128) (n1 := 86) (j 0) (j 1))) (x2 (ix2 (n0 := 128) (n1 := 86) (j 0) (j 1))) (x0 j)
      = G3 X UP LOW I := by
  unfold G3
  rw [funext h0, h1, h2, h3]

/-- The region finds x viewed as [4096, 86, 128]. -/
theorem V_main_v0 (c : Dev nD) :
    (V m c main_v0 : S4096x86x128.Idx → EReal)
      = shapeCast S4096x86x128 (m ((c : Thread nD τ).loc main_arg0)) Facts₀.shapeCasts_S4096x11008_S4096x86x128 := by
  show StableHlo.after hostOps0 (fun b => m (c, b)) (Proc.devRef .tc main_v0) = _
  after_results
  rfl

/-- The region finds the upper factors viewed as [4096, 86]. -/
theorem V_main_v1 (c : Dev nD) :
    (V m c main_v1 : S4096x86.Idx → EReal)
      = shapeCast S4096x86 (m ((c : Thread nD τ).loc main_arg1)) Facts₀.shapeCasts_S352256x1_S4096x86 := by
  show StableHlo.after hostOps0 (fun b => m (c, b)) (Proc.devRef .tc main_v1) = _
  after_results
  rfl

/-- The region finds the lower factors viewed as [4096, 86]. -/
theorem V_main_v2 (c : Dev nD) :
    (V m c main_v2 : S4096x86.Idx → EReal)
      = shapeCast S4096x86 (m ((c : Thread nD τ).loc main_arg2)) Facts₀.shapeCasts_S352256x1_S4096x86 := by
  show StableHlo.after hostOps0 (fun b => m (c, b)) (Proc.devRef .tc main_v2) = _
  after_results
  rfl

/-- The printed index maps over the 32 grid points: every window's block index on the row axis is the output's, and on
    the other axes it is 0. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = win0_3.index t (0 : Fin 3) ∧ win0_1.index t (1 : Fin 2) = 0
    ∧ win0_2.index t (0 : Fin 2) = win0_3.index t (0 : Fin 3) ∧ win0_2.index t (1 : Fin 2) = 0
    ∧ win0_3.index t (1 : Fin 3) = 0 ∧ win0_3.index t (2 : Fin 3) = 0 ∧ win0_3.index t (0 : Fin 3) ≤ 31 :=
  (by decide +kernel : ∀ t : Fin grid0.N, _)

/-- Every block of 128 rows is some point's. -/
theorem idx_onto : ∀ b : Fin 32, ∃ t : Fin cfg0.N, win0_3.index t = ![b.val, 0, 0] :=
  (by decide +kernel : ∀ b : Fin 32, ∃ t : Fin grid0.N, win0_3.index t = ![b.val, 0, 0])

/-- WHAT POINT t WRITES BACK is block t of the result over the views the region finds. -/
theorem flushed_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3, block_eq]
  obtain ⟨e00, e01, e02, e10, e11, e20, e21, e31, e32, e3b⟩ := idx_facts t
  funext j
  refine point_eq (V m c main_v0) (V m c main_v1) (V m c main_v2) (iblk m c 0 t) (iblk m c 1 t) (iblk m c 2 t) j
    (((cfg0.win 3).blk t).view.emb j) (fun k => ?_) ?_ ?_ ?_
  · unfold iblk
    rw [View.read_apply]
    refine congrArg (V m c main_v0) (funext fun a => Fin.ext ?_)
    match a with
    | ⟨0, _⟩ => show win0_0.index t (0 : Fin 3) * 128 + 1 * (j 0).val = win0_3.index t (0 : Fin 3) * 128 + 1 * (j 0).val; omega
    | ⟨1, _⟩ => show win0_0.index t (1 : Fin 3) * 86 + 1 * (j 1).val = win0_3.index t (1 : Fin 3) * 86 + 1 * (j 1).val; omega
    | ⟨2, _⟩ => show win0_0.index t (2 : Fin 3) * 128 + 1 * k.val = k.val; omega
  · unfold iblk
    rw [View.read_apply]
    refine congrArg (V m c main_v1) (funext fun a => Fin.ext ?_)
    match a with
    | ⟨0, _⟩ => show win0_1.index t (0 : Fin 2) * 128 + 1 * (j 0).val = win0_3.index t (0 : Fin 3) * 128 + 1 * (j 0).val; omega
    | ⟨1, _⟩ => show win0_1.index t (1 : Fin 2) * 86 + 1 * (j 1).val = win0_3.index t (1 : Fin 3) * 86 + 1 * (j 1).val; omega
  · unfold iblk
    rw [View.read_apply]
    refine congrArg (V m c main_v2) (funext fun a => Fin.ext ?_)
    match a with
    | ⟨0, _⟩ => show win0_2.index t (0 : Fin 2) * 128 + 1 * (j 0).val = win0_3.index t (0 : Fin 3) * 128 + 1 * (j 0).val; omega
    | ⟨1, _⟩ => show win0_2.index t (1 : Fin 2) * 86 + 1 * (j 1).val = win0_3.index t (1 : Fin 3) * 86 + 1 * (j 1).val; omega
  · unfold iblk
    rw [View.read_apply]
    refine congrArg (V m c main_v0) (funext fun a => Fin.ext ?_)
    match a with
    | ⟨0, _⟩ => show win0_0.index t (0 : Fin 3) * 128 + 1 * (j 0).val = win0_3.index t (0 : Fin 3) * 128 + 1 * (j 0).val; omega
    | ⟨1, _⟩ => show win0_0.index t (1 : Fin 3) * 86 + 1 * (j 1).val = win0_3.index t (1 : Fin 3) * 86 + 1 * (j 1).val; omega
    | ⟨2, _⟩ => show win0_0.index t (2 : Fin 3) * 128 + 1 * (j 2).val = win0_3.index t (2 : Fin 3) * 128 + 1 * (j 2).val; omega

/-- An index of the array is in point t's block iff each coordinate is in the block's range on its axis. -/
theorem mem_blk (t : Fin cfg0.N) (i : S4096x86x128.Idx) :
    i ∈ ((cfg0.win 3).blk t).view.set ↔ ∀ a : Fin 3, win0_3.index t a * S128x86x128.size a ≤ (i a).val
      ∧ (i a).val < win0_3.index t a * S128x86x128.size a + S128x86x128.size a := by
  show i ∈ ((View.whole main_v3).slice (win0_3.rect t)).set ↔ _
  rw [View.set_slice_whole, Rect.mem_set_unit]
  exact Iff.rfl

/-- Every index lies in some point's block: row r is in the block of point r / 128. -/
theorem cover (i : S4096x86x128.Idx) :
    ∃ t : Fin cfg0.N, (cfg0.win 3).flush t = true ∧ i ∈ ((cfg0.win 3).blk t).view.set := by
  have hi0 : (i 0).val < 4096 := (i 0).isLt
  have hi1 : (i 1).val < 86 := (i 1).isLt
  have hi2 : (i 2).val < 128 := (i 2).isLt
  obtain ⟨t, ht⟩ := idx_onto ⟨(i 0).val / 128, by omega⟩
  have q0 : win0_3.index t (0 : Fin 3) = (i 0).val / 128 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 86 ≤ (i 1).val ∧ (i 1).val < win0_3.index t (1 : Fin 3) * 86 + 86; omega
  | ⟨2, _⟩ => show win0_3.index t (2 : Fin 3) * 128 ≤ (i 2).val ∧ (i 2).val < win0_3.index t (2 : Fin 3) * 128 + 128; omega

/-- THE ARRAY after the region: the result over the views. -/
theorem final (c : Dev nD) : (dats m 0 c).arrAt 3 cfg0.N = G3 (V m c main_v0) (V m c main_v1) (V m c main_v2) :=
  (dats m 0 c).arrAt_eq_of_cover 3 (G3 (V m c main_v0) (V m c main_v1) (V m c main_v2)) (fun t _ => flushed_eq m c t) cover

/-- The kernel's result as one function of the three argument arrays: the views, the per-entry function, the view back. -/
def K (a0 : S4096x11008.Idx → EReal) (a1 a2 : S352256x1.Idx → EReal) : S4096x11008.Idx → EReal :=
  shapeCast S4096x11008
    (G3 (shapeCast S4096x86x128 a0 Facts₀.shapeCasts_S4096x11008_S4096x86x128)
      (shapeCast S4096x86 a1 Facts₀.shapeCasts_S352256x1_S4096x86) (shapeCast S4096x86 a2 Facts₀.shapeCasts_S352256x1_S4096x86))
    Facts₀.shapeCasts_S4096x86x128_S4096x11008

/-- After the host's last reshape the result buffer holds that function of the arguments. -/
theorem tail_v4 (c : Dev nD) :
    (Pipeline.afterTail₀ cfgs (dats m) 0 (V0 m) [hostOps1] c main_v4 : S4096x11008.Idx → EReal)
      = K (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = G3 (V m c main_v0) (V m c main_v1) (V m c main_v2) :=
    (Pipeline.withArrays_arr spec0 launch0.win.arr_inj c _ _ 3).trans (final m c)
  show shapeCast S4096x11008 (Pipeline.withArrays (cfgs 0).spec c (V0 m c) (fun w => (dats m 0 c).arrAt w (cfgs 0).N)
      (Proc.devRef .tc main_v3)) Facts₀.shapeCasts_S4096x86x128_S4096x11008 = _
  rw [hw, V_main_v0, V_main_v1, V_main_v2]
  rfl

/-- THE RUN, READ: every weakly fair execution ends with the result buffer at the kernel's function of the argument
    arrays, and the arguments unchanged. -/
theorem run : θ_run defs (onTc (τ := τ) (main (F := Ideal))) ⟨m, fun _ => 0, ρ⟩ fun r => ∀ c : Dev nD,
      r.2.mem ((c : Thread nD τ).loc main_v4)
        = K (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (tail_v4 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

/-! ## The kernel's function is the specification -/

/-- The per-entry function at explicit coordinates. -/
theorem G3_apply (X : S4096x86x128.Idx → EReal) (UP LOW : S4096x86.Idx → EReal) (r : Fin 4096) (q : Fin 86) (l : Fin 128) :
    G3 X UP LOW (ix3 r q l)
      = elemMul (gmin fun k => X (ix3 r q k)) (gmax fun k => X (ix3 r q k)) (UP (ix2 r q)) (LOW (ix2 r q)) (X (ix3 r q l)) := rfl

/-- Entry (r, q, l) of x viewed [4096, 86, 128] is entry (r, q * 128 + l) of x. -/
theorem view3_apply {α : Type} (a0 : S4096x11008.Idx → α) (h : S4096x11008.ShapeCasts S4096x86x128) (r : Fin 4096) (q : Fin 86) (l : Fin 128) :
    shapeCast S4096x86x128 a0 h (ix3 r q l)
      = a0 (ix2 (n0 := 4096) (n1 := 11008) r ⟨q.val * 128 + l.val, by have := q.isLt; have := l.isLt; omega⟩) := by
  refine shapeCast_apply a0 h (ix3 r q l) _ ?_
  rw [Shape.rowMajor_val_two, Shape.rowMajor_val_three]
  show r.val * 11008 + (q.val * 128 + l.val) = (r.val * 86 + q.val) * 128 + l.val
  omega

/-- Entry (r, q) of a factor array viewed [4096, 86] is its entry (r * 86 + q, 0). -/
theorem view2_apply {α : Type} (a1 : S352256x1.Idx → α) (h : S352256x1.ShapeCasts S4096x86) (r : Fin 4096) (q : Fin 86) :
    shapeCast S4096x86 a1 h (ix2 r q)
      = a1 (ix2 (n0 := 352256) (n1 := 1) ⟨r.val * 86 + q.val, by have := r.isLt; have := q.isLt; omega⟩ (0 : Fin 1)) := by
  refine shapeCast_apply a1 h (ix2 r q) _ ?_
  rw [Shape.rowMajor_val_two, Shape.rowMajor_val_two]
  show (r.val * 86 + q.val) * 1 + 0 = r.val * 86 + q.val
  omega

/-- Entry (r, c) of the [4096, 86, 128] result viewed [4096, 11008] is its entry (r, c / 128, c % 128). -/
theorem flat_apply {α : Type} (Y : S4096x86x128.Idx → α) (h : S4096x86x128.ShapeCasts S4096x11008) (r : Fin 4096) (cc : Fin 11008) :
    shapeCast S4096x11008 Y h (ix2 r cc)
      = Y (ix3 (n0 := 4096) (n1 := 86) (n2 := 128) r ⟨cc.val / 128, by have := cc.isLt; omega⟩
          ⟨cc.val % 128, Nat.mod_lt _ (by decide)⟩) := by
  refine shapeCast_apply Y h (ix2 r cc) _ ?_
  rw [Shape.rowMajor_val_three, Shape.rowMajor_val_two]
  show (r.val * 86 + cc.val / 128) * 128 + cc.val % 128 = r.val * 11008 + cc.val
  omega

/-- Through the three views, entry (r, c) gets the per-entry function of group r * 86 + c / 128, whose k-th value is
    entry (r, (c / 128) * 128 + k) of x. -/
theorem K_apply (a0 : S4096x11008.Idx → EReal) (a1 a2 : S352256x1.Idx → EReal) (r : Fin 4096) (cc : Fin 11008) :
    K a0 a1 a2 (ix2 r cc) = G a0 a1 a2 (ix2 r cc) := by
  have hc := cc.isLt
  have hr := r.isLt
  unfold K
  refine (flat_apply _ _ r cc).trans ?_
  refine (G3_apply _ _ _ r ⟨cc.val / 128, by omega⟩ ⟨cc.val % 128, Nat.mod_lt _ (by decide)⟩).trans ?_
  simp only [view3_apply, view2_apply]
  have em : ∀ k : Fin 128,
      (ix2 (n0 := 4096) (n1 := 11008) r ⟨cc.val / 128 * 128 + k.val, by have := k.isLt; omega⟩)
        = member (groupOf (ix2 r cc)) k := fun k => by
    have := k.isLt
    funext a
    apply Fin.ext
    match a with
    | ⟨0, _⟩ => show r.val = ((r.val * 86 + cc.val / 128) * 128 + k.val) / 11008; omega
    | ⟨1, _⟩ => show cc.val / 128 * 128 + k.val = ((r.val * 86 + cc.val / 128) * 128 + k.val) % 11008; omega
  have ei : (ix2 (n0 := 4096) (n1 := 11008) r ⟨cc.val / 128 * 128 + cc.val % 128, by omega⟩) = ix2 r cc := by
    funext a
    apply Fin.ext
    match a with
    | ⟨0, _⟩ => rfl
    | ⟨1, _⟩ => show cc.val / 128 * 128 + cc.val % 128 = cc.val; omega
  simp only [em, ei]
  rfl

/-- THE KERNEL'S FUNCTION IS THE SPECIFICATION. -/
theorem K_eq_G (a0 : S4096x11008.Idx → EReal) (a1 a2 : S352256x1.Idx → EReal) : K a0 a1 a2 = G a0 a1 a2 := by
  funext i
  obtain ⟨r, cc, rfl⟩ : ∃ (r : Fin 4096) (cc : Fin 11008), i = ix2 r cc := ⟨i 0, i 1, eq_ix2 i⟩
  exact K_apply a0 a1 a2 r cc

end Cert.KernelIdeal.QuantValue

end
-- ==== Proof.RefValue.lean ====
/-
  The reference program's result, read back as ONE function of its three arguments: at every entry it is the
  dividing spelling of the group's quantize-and-map-back (Spec.lean, Gdiv).

  The reference reshapes x from [4096, 11008] to [352256, 128], so that row g of the reshaped array holds group g:
  its k-th value is flat position g * 128 + k of x. The group's minimum and maximum are the folds of min and max along
  that row, from the patterns of +infinity and -infinity; for a commutative and associative operation such a
  reduction over one axis is the fold over that axis's 128 coordinates. From them and the two factor arrays come, per
  group, the bounds L = sigmoid(l) * min and U = sigmoid(u) * max, the scale clamp((U - L) / 15) and the rounded zero
  point; per value, x / s written y + (round y - y), the zero point added, the clamp to [0, 15], the zero point
  subtracted, the product with s. Reshaping back, entry (r, c) reads position ((r * 11008 + c) / 128,
  (r * 11008 + c) % 128), which is entry (r, c) of x itself, in row r * 86 + c / 128 because 11008 = 86 * 128.
-/
import proofs.«156058_j23098334118321_2_alg».proof.Proof.Gen.ReferenceIdeal.Read
import proofs.«156058_j23098334118321_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.QuantRef

open Idealize.ShloMosaic Idealize.ShloMosaic.ValueIdx
open Cert.ReferenceIdeal Cert.ReferenceIdeal.Gen Cert.ReferenceIdeal.Read Cert.Quant

/-- The reshaped [352256, 128] array reduces along its second axis to the [352256] array of groups. -/
theorem reduces_d1 : S352256x128.Reduces [1] S352256 := by decide

/-- The group a rank-1 group index names. -/
abbrev grp1 (j : S352256.Idx) : Fin 352256 := ⟨(j 0).val, (j 0).isLt⟩

/-- Row g of the reshaped array at column k is the k-th value of group g. -/
theorem lift_member (j : S352256.Idx) (k : Fin 128) :
    idx_main_v0 (reduces_d1.lift j k) = member (grp1 j) k := by
  funext a
  match a with
  | ⟨0, _⟩ => rfl
  | ⟨1, _⟩ => rfl

/-- The reduction by minimum along a row is the group's minimum. -/
theorem v1_at (a0 : FVec Ideal S4096x11008 .f32) (j : S352256.Idx) :
    val_main_v1 (F := Ideal) a0 j = gmin (fun k => a0 (member (grp1 j) k)) := by
  unfold val_main_v1
  rw [Host.reduce_eq_fold_single _ _ _ _ reduces_d1]
  have hf : (val_main_v0 (F := Ideal) a0 ∘ reduces_d1.lift j) = fun k => a0 (member (grp1 j) k) := by
    funext k
    show val_main_v0 (F := Ideal) a0 (reduces_d1.lift j k) = _
    rw [val_main_v0_apply]
    exact congrArg a0 (lift_member j k)
  rw [hf]
  rfl

/-- The reduction by maximum along a row is the group's maximum. -/
theorem v3_at (a0 : FVec Ideal S4096x11008 .f32) (j : S352256.Idx) :
    val_main_v3 (F := Ideal) a0 j = gmax (fun k => a0 (member (grp1 j) k)) := by
  unfold val_main_v3
  rw [Host.reduce_eq_fold_single _ _ _ _ reduces_d1]
  have hf : (val_main_v0 (F := Ideal) a0 ∘ reduces_d1.lift j) = fun k => a0 (member (grp1 j) k) := by
    funext k
    show val_main_v0 (F := Ideal) a0 (reduces_d1.lift j k) = _
    rw [val_main_v0_apply]
    exact congrArg a0 (lift_member j k)
  rw [hf]
  rfl

/-- The group a [352256, 1] index names. -/
abbrev grp (j : S352256x1.Idx) : Fin 352256 := ⟨(j 0).val, (j 0).isLt⟩

/-- The group's lower bound L = sigmoid(l) * min and upper bound U = sigmoid(u) * max. -/
abbrev Lo (a0 : FVec Ideal S4096x11008 .f32) (a2 : FVec Ideal S352256x1 .f32) (j : S352256x1.Idx) : EReal :=
  sigma (a2 j) * gmin (fun k => a0 (member (grp j) k))
abbrev Up (a0 : FVec Ideal S4096x11008 .f32) (a1 : FVec Ideal S352256x1 .f32) (j : S352256x1.Idx) : EReal :=
  sigma (a1 j) * gmax (fun k => a0 (member (grp j) k))

/-- The minimum, as a [352256, 1] column. -/
theorem v2_at (a0 : FVec Ideal S4096x11008 .f32) (j : S352256x1.Idx) :
    val_main_v2 (F := Ideal) a0 j = gmin (fun k => a0 (member (grp j) k)) := by
  rw [val_main_v2_apply, v1_at]

/-- The maximum, as a [352256, 1] column. -/
theorem v4_at (a0 : FVec Ideal S4096x11008 .f32) (j : S352256x1.Idx) :
    val_main_v4 (F := Ideal) a0 j = gmax (fun k => a0 (member (grp j) k)) := by
  rw [val_main_v4_apply, v3_at]

/-- 1 / (1 + e^(-u)) is the spelled-out sigmoid of the first factor. -/
theorem v10_at (a1 : FVec Ideal S352256x1 .f32) (j : S352256x1.Idx) :
    val_main_v10 (F := Ideal) a1 j = sigma (a1 j) := by
  rw [val_main_v10_apply, val_main_v9_apply, val_main_cst_2_apply, val_main_v8_apply, val_main_v7_apply,
    val_main_cst_1_apply, val_main_v6_apply, val_main_v5_apply]
  rfl

/-- Likewise of the second factor. -/
theorem v17_at (a2 : FVec Ideal S352256x1 .f32) (j : S352256x1.Idx) :
    val_main_v17 (F := Ideal) a2 j = sigma (a2 j) := by
  rw [val_main_v17_apply, val_main_v16_apply, val_main_cst_4_apply, val_main_v15_apply, val_main_v14_apply,
    val_main_cst_3_apply, val_main_v13_apply, val_main_v12_apply]
  rfl

/-- The upper bound U. -/
theorem v11_at (a0 : FVec Ideal S4096x11008 .f32) (a1 : FVec Ideal S352256x1 .f32) (j : S352256x1.Idx) :
    val_main_v11 (F := Ideal) a0 a1 j = Up a0 a1 j := by
  rw [val_main_v11_apply, v10_at, v4_at]
  rfl

/-- The lower bound L. -/
theorem v18_at (a0 : FVec Ideal S4096x11008 .f32) (a2 : FVec Ideal S352256x1 .f32) (j : S352256x1.Idx) :
    val_main_v18 (F := Ideal) a0 a2 j = Lo a0 a2 j := by
  rw [val_main_v18_apply, v17_at, v2_at]
  rfl

/-- The scale: (U - L) / 15 clamped to [c, 10000]. -/
theorem v22_at (a0 : FVec Ideal S4096x11008 .f32) (a1 a2 : FVec Ideal S352256x1 .f32) (j : S352256x1.Idx) :
    val_main_v22 (F := Ideal) a0 a1 a2 j = scaleOf (Up a0 a1 j) (Lo a0 a2 j) := by
  rw [val_main_v22_apply, val_main_call0_v4_apply, val_main_call0_v3_apply, val_main_cst_7_apply,
    val_main_call0_v2_apply, val_main_call0_v1_apply, val_main_call0_v0_apply, val_main_cst_6_apply,
    val_main_v21_apply, val_main_v20_apply, val_main_cst_5_apply, val_main_v19_apply, v11_at, v18_at]
  rfl

/-- The zero point: (-L) / s clamped to [-10000, 10000] and rounded. -/
theorem v26_at (a0 : FVec Ideal S4096x11008 .f32) (a1 a2 : FVec Ideal S352256x1 .f32) (j : S352256x1.Idx) :
    val_main_v26 (F := Ideal) a0 a1 a2 j = zeroPointDiv (Lo a0 a2 j) (scaleOf (Up a0 a1 j) (Lo a0 a2 j)) := by
  rw [val_main_v26_apply, val_main_v25_apply, val_main_call1_v4_apply, val_main_call1_v3_apply, val_main_cst_9_apply,
    val_main_call1_v2_apply, val_main_call1_v1_apply, val_main_call1_v0_apply, val_main_cst_8_apply,
    val_main_v24_apply, val_main_v23_apply, v18_at, v22_at]
  rfl

/-- Entry (r, c) sits at position ((r * 11008 + c) / 128, (r * 11008 + c) % 128) of the reshaped array, and that
    position is entry (r, c) of x again. -/
theorem idx_self (i : S4096x11008.Idx) : idx_main_v0 (idx_main_v39 i) = i := by
  have h0 := idx2_lt0 i
  have h1 := idx2_lt1 i
  funext a
  match a with
  | ⟨0, _⟩ =>
    apply Fin.ext
    show (((i 0).val * 11008 + (i 1).val) / 128 * 128 + ((i 0).val * 11008 + (i 1).val) % 128) / 11008 = (i 0).val
    omega
  | ⟨1, _⟩ =>
    apply Fin.ext
    show (((i 0).val * 11008 + (i 1).val) / 128 * 128 + ((i 0).val * 11008 + (i 1).val) % 128) % 11008 = (i 1).val
    omega

/-- Its row in the reshaped array is its group: (r * 11008 + c) / 128 = r * 86 + c / 128, as 11008 = 86 * 128. -/
theorem idx_group27 (i : S4096x11008.Idx) : idx_main_v27 (idx_main_v39 i) = factorAt (groupOf i) := by
  have h0 := idx2_lt0 i
  have h1 := idx2_lt1 i
  funext a
  match a with
  | ⟨0, _⟩ =>
    apply Fin.ext
    show ((i 0).val * 11008 + (i 1).val) / 128 = (i 0).val * 86 + (i 1).val / 128
    omega
  | ⟨1, _⟩ => rfl

/-- The same row, at each of the other three places the per-group columns are spread along the rows. -/
theorem idx_group32 (i : S4096x11008.Idx) : idx_main_v32 (idx_main_v39 i) = factorAt (groupOf i) := idx_group27 i
theorem idx_group35 (i : S4096x11008.Idx) : idx_main_v35 (idx_main_v39 i) = factorAt (groupOf i) := idx_group27 i
theorem idx_group37 (i : S4096x11008.Idx) : idx_main_v37 (idx_main_v39 i) = factorAt (groupOf i) := idx_group27 i

/-- The reference's result at an entry is the dividing spelling of the group's quantize-and-map-back. -/
theorem ref_apply (a0 : FVec Ideal S4096x11008 .f32) (a1 a2 : FVec Ideal S352256x1 .f32) (i : S4096x11008.Idx) :
    val_main_v39 (F := Ideal) a0 a1 a2 i = Gdiv a0 a1 a2 i := by
  rw [val_main_v39_apply, val_main_v38_apply, val_main_v37_apply, val_main_v36_apply, val_main_v35_apply,
    val_main_v34_apply, val_main_call4_v4_apply, val_main_call4_v3_apply, val_main_cst_11_apply,
    val_main_call4_v2_apply, val_main_call4_v1_apply, val_main_call4_v0_apply, val_main_cst_10_apply,
    val_main_v33_apply, val_main_v32_apply, val_main_v31_apply, val_main_v30_apply, val_main_v29_apply,
    val_main_v28_apply, val_main_v27_apply, val_main_v0_apply,
    idx_self, idx_group27, idx_group32, idx_group35, idx_group37, v22_at, v26_at]
  rfl

/-- The reference's result IS that array. -/
theorem ref_eq (a0 : FVec Ideal S4096x11008 .f32) (a1 a2 : FVec Ideal S352256x1 .f32) :
    val_main_v39 (F := Ideal) a0 a1 a2 = Gdiv a0 a1 a2 :=
  funext (ref_apply a0 a1 a2)

end Cert.ReferenceIdeal.QuantRef

end
-- ==== Proof.lean ====
/-
  Per-group 4-bit quantization and mapping back, kernel against reference, over the extended reals.

  x is a [4096, 11008] array cut into 352256 groups of 128 consecutive values; two [352256, 1] arrays hold one factor
  per group. Per group, with mn and mx the group's minimum and maximum, both programs form L = sigmoid(l) * mn,
  U = sigmoid(u) * mx, the scale s = clamp((U - L) / 15) between the float nearest 1/10000 and 10000, and the zero point
  z = round(clamp(-L / s, -10000, 10000)); per value x they return (clamp(round(x / s) + z, 0, 15) - z) * s.

  The kernel works on x viewed [4096, 86, 128], 128 rows per grid point, and multiplies by the reciprocal 1 / s taken
  once per group; the reference works on x viewed [352256, 128], divides by s, and writes the rounding of y = x / s as
  y + (round y - y). The sigmoid is one operation in the kernel and 1 / (1 + e^(-t)) in the reference, which is what
  that operation means on the extended reals. The two results are one function of the arguments wherever x holds real
  numbers: the scale is a nonzero real whatever the group holds, so dividing by it is multiplying by its reciprocal,
  and y + (round y - y) = round y at a real y (Algebra.lean, Spec.lean). At an infinite x the second identity fails,
  so the finiteness of x, which the precondition states, is used, and only there (FiniteInputs.lean).

  The kernel's result array is read off its run block by block (Payload.lean, KernelValue.lean), the reference's off its
  operations one at a time (RefValue.lean). The three frames are the programs' runs with the results dropped; the
  idealized kernel is the kernel's own text read on the extended reals, so there is nothing to preserve.
-/
import proofs.«156058_j23098334118321_2_alg».proof.Defs
import proofs.«156058_j23098334118321_2_alg».proof.Proof.Gen.Kernel
import proofs.«156058_j23098334118321_2_alg».proof.Proof.Gen.Kernel.Skeleton
import proofs.«156058_j23098334118321_2_alg».proof.Proof.Gen.Kernel.Launch
import proofs.«156058_j23098334118321_2_alg».proof.Proof.Gen.Kernel.Points
import proofs.«156058_j23098334118321_2_alg».proof.Proof.Gen.Kernel.Frame
import proofs.«156058_j23098334118321_2_alg».proof.Proof.Gen.KernelIdeal
import proofs.«156058_j23098334118321_2_alg».proof.Proof.Gen.KernelIdeal.Skeleton
import proofs.«156058_j23098334118321_2_alg».proof.Proof.Gen.KernelIdeal.Launch
import proofs.«156058_j23098334118321_2_alg».proof.Proof.Gen.KernelIdeal.Points
import proofs.«156058_j23098334118321_2_alg».proof.Proof.Gen.KernelIdeal.Frame
import proofs.«156058_j23098334118321_2_alg».proof.Proof.Gen.ReferenceIdeal
import proofs.«156058_j23098334118321_2_alg».proof.Proof.Gen.ReferenceIdeal.Run
import proofs.«156058_j23098334118321_2_alg».proof.Proof.Gen.ReferenceIdeal.Read
import proofs.«156058_j23098334118321_2_alg».proof.Proof.Gen.Pre_finite_inputs
import proofs.«156058_j23098334118321_2_alg».proof.Proof.FiniteInputs
import proofs.«156058_j23098334118321_2_alg».proof.Proof.Spec
import proofs.«156058_j23098334118321_2_alg».proof.Proof.KernelValue
import proofs.«156058_j23098334118321_2_alg».proof.Proof.RefValue
import Idealize.ShloMosaic.Adequacy
import Idealize.ShloMosaic.Init

noncomputable section

namespace Cert.Proof

open Idealize.ShloMosaic Idealize.SL.Sem

/-- The two idealized programs, from memories agreeing on the arguments, end with one result: the specification's array
    of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Quant.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.QuantValue.K_eq_G _ _ _), (h c).2⟩)
      (Cert.KernelIdeal.QuantValue.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v39_eq, Cert.ReferenceIdeal.QuantRef.ref_eq,
      (hagree c).1, (hagree c).2.1, (hagree c).2.2]
    exact Cert.Quant.Gdiv_eq_G _ _ _ (fun i => Cert.FiniteInputs.x_real _ _ _ (hpre c) i)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
